-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x16x2x2 : Shape := ⟨5, ![256, 2048, 16, 2, 2]⟩
abbrev S256 : Shape := ⟨1, ![256]⟩
abbrev S2x2048 : Shape := ⟨2, ![2, 2048]⟩
abbrev S2 : Shape := ⟨1, ![2]⟩
abbrev S3x2048 : Shape := ⟨2, ![3, 2048]⟩
abbrev S3 : Shape := ⟨1, ![3]⟩
abbrev S_ : Shape := ⟨0, ![]⟩

class Facts : Prop where
  bcast_S_S256x2048x16x2x2 : S_.BroadcastsInDim S256x2048x16x2x2 (![] : Fin 0 → Fin S256x2048x16x2x2.rank)
  reducesTo_S256x2048x16x2x2_S_d0_1_2_3_4 : S256x2048x16x2x2.ReducesTo [0, 1, 2, 3, 4] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S2 : S_.BroadcastsInDim S2 (![] : Fin 0 → Fin S2.rank)
  reducesTo_S2_S_d0 : S2.ReducesTo [0] S_
  bcast_S_S3x2048 : S_.BroadcastsInDim S3x2048 (![] : Fin 0 → Fin S3x2048.rank)
  reducesTo_S3x2048_S_d0_1 : S3x2048.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S256x2048x16x2x2 .f32) (main_arg1 : IVec S256 32) (main_arg2 : FVec F S2x2048 .f32) (main_arg3 : FVec F S2 .f32) (main_arg4 : FVec F S3x2048 .f32) (main_arg5 : FVec F S3 .f32) : IVec S_ 1 :=
  let main_v0 : FVec F S256x2048x16x2x2 .f32 := Host.absf main_arg0
  let main_cst : FVec F S_ .f32 := constant S_ .f32 0x7F800000#32
  let main_v1 : FVec F S256x2048x16x2x2 .f32 := broadcastInDim S256x2048x16x2x2 ![] bcast_S_S256x2048x16x2x2 main_cst
  let main_v2 : IVec S256x2048x16x2x2 1 := cmpf .olt main_v0 main_v1
  let main_c : IVec S_ 1 := constantI S_ 1 1#1
  let main_v3 : IVec S_ 1 := (fun x v => Host.reduce IntOp.andi x v reducesTo_S256x2048x16x2x2_S_d0_1_2_3_4 h_S_) main_v2 main_c
  let main_v4 : FVec F S2x2048 .f32 := Host.absf main_arg2
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S3x2048 .f32 := Host.absf main_arg4
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg5 main_v13 main_v16
-- ==== Kernel.lean ====
abbrev S256x2048x16x2x2 : Shape := ⟨5, ![256, 2048, 16, 2, 2]⟩
abbrev S256 : Shape := ⟨1, ![256]⟩
abbrev S2x2048 : Shape := ⟨2, ![2, 2048]⟩
abbrev S2 : Shape := ⟨1, ![2]⟩
abbrev S3x2048 : Shape := ⟨2, ![3, 2048]⟩
abbrev S3 : Shape := ⟨1, ![3]⟩
abbrev S2048x2 : Shape := ⟨2, ![2048, 2]⟩
abbrev S2048x3 : Shape := ⟨2, ![2048, 3]⟩
abbrev S2048x5 : Shape := ⟨2, ![2048, 5]⟩
abbrev S5 : Shape := ⟨1, ![5]⟩
abbrev S1x5 : Shape := ⟨2, ![1, 5]⟩
abbrev S256x2048x64 : Shape := ⟨3, ![256, 2048, 64]⟩
abbrev S256x5 : Shape := ⟨2, ![256, 5]⟩
abbrev S16x2048x64 : Shape := ⟨3, ![16, 2048, 64]⟩
abbrev S16x5 : Shape := ⟨2, ![16, 5]⟩
abbrev S16x2048 : Shape := ⟨2, ![16, 2048]⟩
abbrev S256x2 : Shape := ⟨2, ![256, 2]⟩
abbrev S256x3 : Shape := ⟨2, ![256, 3]⟩

abbrev nBuf : Space → Nat
  | .hbm => 15
  | .vmem => 6
  | .smem => 0
  | _ => 0

abbrev bufTy : (tb : Table) → Fin (tcTables nBuf tb) → BufTy
  | .hbm, ⟨0, _⟩ => ⟨S256x2048x16x2x2, .f32⟩
  | .hbm, ⟨1, _⟩ => ⟨S256, .i32⟩
  | .hbm, ⟨2, _⟩ => ⟨S2x2048, .f32⟩
  | .hbm, ⟨3, _⟩ => ⟨S2, .f32⟩
  | .hbm, ⟨4, _⟩ => ⟨S3x2048, .f32⟩
  | .hbm, ⟨5, _⟩ => ⟨S3, .f32⟩
  | .hbm, ⟨6, _⟩ => ⟨S2048x2, .f32⟩
  | .hbm, ⟨7, _⟩ => ⟨S2048x3, .f32⟩
  | .hbm, ⟨8, _⟩ => ⟨S2048x5, .f32⟩
  | .hbm, ⟨9, _⟩ => ⟨S5, .f32⟩
  | .hbm, ⟨10, _⟩ => ⟨S1x5, .f32⟩
  | .hbm, ⟨11, _⟩ => ⟨S256x2048x64, .f32⟩
  | .hbm, ⟨12, _⟩ => ⟨S256x5, .f32⟩
  | .hbm, ⟨13, _⟩ => ⟨S256x2, .f32⟩
  | .hbm, ⟨14, _⟩ => ⟨S256x3, .f32⟩
  | .local _ .vmem, ⟨0, _⟩ => ⟨S16x2048x64, .f32⟩
  | .local _ .vmem, ⟨1, _⟩ => ⟨S16x2048x64, .f32⟩
  | .local _ .vmem, ⟨2, _⟩ => ⟨S2048x5, .f32⟩
  | .local _ .vmem, ⟨3, _⟩ => ⟨S1x5, .f32⟩
  | .local _ .vmem, ⟨4, _⟩ => ⟨S16x5, .f32⟩
  | .local _ .vmem, ⟨5, _⟩ => ⟨S16x5, .f32⟩
  | _, _ => ⟨S256x2048x16x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x2048_S2048x2_1_0 : S2x2048.Transposes [1, 0] S2048x2
  transposes_S3x2048_S2048x3_1_0 : S3x2048.Transposes [1, 0] S2048x3
  concatenates_S2048x2_S2048x3_S2048x5_d1 : Shape.Concatenates [S2048x2, S2048x3] S2048x5 1
  concatenates_S2_S3_S5_d0 : Shape.Concatenates [S2, S3] S5 0
  bcast_S5_S1x5_1 : S5.BroadcastsInDim S1x5 (![1] : Fin 1 → Fin S1x5.rank)
  shapeCasts_S256x2048x16x2x2_S256x2048x64 : S256x2048x16x2x2.ShapeCasts S256x2048x64
  inb_S16x2048x64_S16x2048x64_0_0_0 : ∀ a, (![0, 0, 0] : Fin 3 → Nat) a + S16x2048x64.size a ≤ S16x2048x64.size a
  h_S16x2048x64 : 0 < S16x2048x64.numel
  shapeCasts_S16x2048x64_S16x2048x64 : S16x2048x64.ShapeCasts S16x2048x64
  reduces_S16x2048x64_S16x2048 : S16x2048x64.Reduces [2] S16x2048
  bitsLt_bf16_f32 : FTy.bits .bf16 < FTy.bits .f32
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S16x5 : S1x5.Broadcasts S16x5
  inb_S16x5_S16x5_0_0 : ∀ a, (![0, 0] : Fin 2 → Nat) a + S16x5.size a ≤ S16x5.size a
  h_S16x5 : 0 < S16x5.numel
  slices_S256x5_S256x2_0_0 : S256x5.Slices ![0, 0] S256x2
  slices_S256x5_S256x3_0_2 : S256x5.Slices ![0, 2] S256x3
  dot_S16x2048_S2048x5_S16x5_1_0_0_1_n_n_wf : DotDims.WF S16x2048 S2048x5 S16x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048x64.size a ≤ S256x2048x64.size a
  hwx0_0 : ∀ i : grid0.Coords, EltTy.bits .f32 = 32 ∨ (Rect.block (s := S256x2048x64) S16x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S2048x5.size a
  hwx0_1 : ∀ i : grid0.Coords, EltTy.bits .f32 = 32 ∨ (Rect.block (s := S2048x5) S2048x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x5.size a ≤ S256x5.size a
  hwx0_3 : ∀ i : grid0.Coords, EltTy.bits .f32 = 32 ∨ (Rect.block (s := S256x5) S16x5.size (cc0_transform_3 i) (hinb0_3 i)).WholeWords (EltTy.packing .f32)

variable [Facts₀]

def dot_S16x2048_S2048x5_S16x5_1_0_0_1_n_n : DotDims S16x2048 S2048x5 S16x5 where
  lhsContracting := [1]
  rhsContracting := [0]
  lhsNonContracting := [0]
  rhsNonContracting := [1]
  lhsBatch := []
  rhsBatch := []
  wf := dot_S16x2048_S2048x5_S16x5_1_0_0_1_n_n_wf

abbrev win0_0 : Pipeline.Window sig grid0 :=
  Pipeline.Window.ofSpec (Memref.whole main_v5) S16x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x2048x16x2x2 : Shape := ⟨5, ![256, 2048, 16, 2, 2]⟩
abbrev S256 : Shape := ⟨1, ![256]⟩
abbrev S2x2048 : Shape := ⟨2, ![2, 2048]⟩
abbrev S2 : Shape := ⟨1, ![2]⟩
abbrev S3x2048 : Shape := ⟨2, ![3, 2048]⟩
abbrev S3 : Shape := ⟨1, ![3]⟩
abbrev S_ : Shape := ⟨0, ![]⟩
abbrev S256x2048 : Shape := ⟨2, ![256, 2048]⟩
abbrev S2048x2 : Shape := ⟨2, ![2048, 2]⟩
abbrev S256x2 : Shape := ⟨2, ![256, 2]⟩
abbrev S1x2 : Shape := ⟨2, ![1, 2]⟩
abbrev S2048x3 : Shape := ⟨2, ![2048, 3]⟩
abbrev S256x3 : Shape := ⟨2, ![256, 3]⟩
abbrev S1x3 : Shape := ⟨2, ![1, 3]⟩

abbrev nBuf : Space → Nat
  | .hbm => 21
  | .vmem => 0
  | .smem => 0
  | _ => 0

abbrev bufTy : (tb : Table) → Fin (tcTables nBuf tb) → BufTy
  | .hbm, ⟨0, _⟩ => ⟨S256x2048x16x2x2, .f32⟩
  | .hbm, ⟨1, _⟩ => ⟨S256, .i32⟩
  | .hbm, ⟨2, _⟩ => ⟨S2x2048, .f32⟩
  | .hbm, ⟨3, _⟩ => ⟨S2, .f32⟩
  | .hbm, ⟨4, _⟩ => ⟨S3x2048, .f32⟩
  | .hbm, ⟨5, _⟩ => ⟨S3, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S2048x2, .f32⟩
  | .hbm, ⟨12, _⟩ => ⟨S256x2, .f32⟩
  | .hbm, ⟨13, _⟩ => ⟨S1x2, .f32⟩
  | .hbm, ⟨14, _⟩ => ⟨S256x2, .f32⟩
  | .hbm, ⟨15, _⟩ => ⟨S256x2, .f32⟩
  | .hbm, ⟨16, _⟩ => ⟨S2048x3, .f32⟩
  | .hbm, ⟨17, _⟩ => ⟨S256x3, .f32⟩
  | .hbm, ⟨18, _⟩ => ⟨S1x3, .f32⟩
  | .hbm, ⟨19, _⟩ => ⟨S256x3, .f32⟩
  | .hbm, ⟨20, _⟩ => ⟨S256x3, .f32⟩
  | _, _ => ⟨S256x2048x16x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S256x2048x16x2x2_S256x2048_d2_3_4 : S256x2048x16x2x2.ReducesTo [2, 3, 4] S256x2048
  h_S_ : 0 < S_.numel
  bcast_S_S256x2048 : S_.BroadcastsInDim S256x2048 (![] : Fin 0 → Fin S256x2048.rank)
  transposes_S2x2048_S2048x2_1_0 : S2x2048.Transposes [1, 0] S2048x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  transposes_S3x2048_S2048x3_1_0 : S3x2048.Transposes [1, 0] S2048x3
  bcast_S3_S1x3_1 : S3.BroadcastsInDim S1x3 (![1] : Fin 1 → Fin S1x3.rank)
  bcast_S1x3_S256x3_0_1 : S1x3.BroadcastsInDim S256x3 (![0, 1] : Fin 2 → Fin S256x3.rank)
  dot_S256x2048_S2048x2_S256x2_1_0_0_1_n_n_wf : DotDims.WF S256x2048 S2048x2 S256x2 [1] [0] [0] [1] [] []
  dot_S256x2048_S2048x3_S256x3_1_0_0_1_n_n_wf : DotDims.WF S256x2048 S2048x3 S256x3 [1] [0] [0] [1] [] []

variable [Facts₀]

def dot_S256x2048_S2048x2_S256x2_1_0_0_1_n_n : DotDims S256x2048 S2048x2 S256x2 where
  lhsContracting := [1]
  rhsContracting := [0]
  lhsNonContracting := [0]
  rhsNonContracting := [1]
  lhsBatch := []
  rhsBatch := []
  wf := dot_S256x2048_S2048x2_S256x2_1_0_0_1_n_n_wf
def dot_S256x2048_S2048x3_S256x3_1_0_0_1_n_n : DotDims S256x2048 S2048x3 S256x3 where
  lhsContracting := [1]
  rhsContracting := [0]
  lhsNonContracting := [0]
  rhsNonContracting := [1]
  lhsBatch := []
  rhsBatch := []
  wf := dot_S256x2048_S2048x3_S256x3_1_0_0_1_n_n_wf

class Facts : Prop extends Facts₀ where

variable [Facts]
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Tile.lean ====
/-
  What one grid point computes. The body takes a block x0 : [16, 2048, 64] of the flattened input, the joined weight
  matrix x1 : [2048, 5] and the joined bias row x2 : [1, 5], and stores

      out(p, q) = sum over c of ((sum over k of x0(p, c, k)) * 2^-6) * x1(c, q)  +  x2(0, q).

  The lane sum starts from the zero word and the product accumulates into the zero array, so neither leaves a term; the
  changes of float format and the casts of a shape to itself are the identity on the extended reals.

  The same formula over the whole arrays defines the region's result `pooledHeads`; a tile computed from blocks that
  restrict the arrays is the restriction of `pooledHeads` (`tile_eq_pooledHeads`).
-/
import proofs.«170877_j87033217286358_2_alg».proof.Proof.Gen.KernelIdeal.Skeleton
import proofs.«170877_j87033217286358_2_alg».proof.Proof.LibMatmulPlain
import proofs.«170877_j87033217286358_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Tile

open Cert.KernelIdeal Cert.KernelIdeal.Gen Idealize.ShloMosaic Idealize.ShloMosaic.ValueIdx

/-- Putting the summed lane k back into the reduced index (p, c) gives (p, c, k). -/
theorem lift_lane (h : S16x2048x64.Reduces [2] S16x2048) (p : Fin 16) (c : Fin 2048) (k : Fin (S16x2048x64.size 2)) :
    h.lift (ix2 p c) k = ix3 p c (⟨k.val, k.isLt⟩ : Fin 64) := by
  funext a; apply Fin.ext
  fin_cases a <;> rfl

/-- The lane sum of the block at (p, c): its 64 entries added up. -/
theorem laneSum_apply (x0 : FVec Ideal S16x2048x64 .f32) (h : S16x2048x64.Reduces [2] S16x2048)
    (hφ : FKind.Formats .f32) (hacc : (0x00000000#32 : BitVec 32) = FKind.add.neutral .f32 hφ) (p : Fin 16) (c : Fin 2048) :
    multiReduction .add [2] S16x2048 x0 0x00000000#32 h hφ hacc (ix2 p c) = ∑ k : Fin 64, x0 (ix3 p c k) := by
  refine (Ideal.multiReduction_add_single x0 0x00000000#32 h hφ hacc (ix2 p c)).trans ?_
  exact Finset.sum_congr rfl fun k _ => congrArg x0 (lift_lane h p c k)

/-- The stored tile at (p, q). -/
theorem tile_apply (x0 : FVec Ideal S16x2048x64 .f32) (x1 : FVec Ideal S2048x5 .f32) (x2 : FVec Ideal S1x5 .f32)
    (p : Fin 16) (q : Fin 5) :
    k0_pay1 (F := Ideal) x0 x1 x2 (ix2 p q)
      = (∑ c : Fin 2048, ((∑ k : Fin 64, x0 (ix3 p c k)) * Ideal.ofBits .f32 0x3C800000#32) * x1 (ix2 c q))
        + x2 (ix2 (0 : Fin 1) q) := by
  unfold k0_pay1
  refine (addf_apply _ _ (ix2 p q)).trans (congrArg₂ (· + ·) ?_ (Cert.LibKeepdims.row_spread_apply x2 _ _ p q))
  refine (Cert.LibMatmulPlain.matmul_zero_apply dot_S16x2048_S2048x5_S16x5_1_0_0_1_n_n rfl rfl rfl rfl rfl rfl none _ _ p q).trans ?_
  refine Finset.sum_congr rfl fun c _ => ?_
  show multiReduction .add [2] S16x2048 (shapeCast S16x2048x64 x0 _) 0x00000000#32 _ _ _ (ix2 p c)
      * Ideal.ofBits .f32 0x3C800000#32 * shapeCast S2048x5 x1 _ (ix2 c q) = _
  rw [shapeCast_self, shapeCast_self]
  exact congrArg (fun z => z * Ideal.ofBits .f32 0x3C800000#32 * x1 (ix2 c q)) (laneSum_apply x0 _ _ _ p c)

/-- The region's result as ONE function of the arrays the region finds: the flattened input x3 : [256, 2048, 64],
    the joined weights w : [2048, 5] and the joined bias row : [1, 5]; at (r, q) the formula above over row r. -/
def pooledHeads (x3 : FVec Ideal S256x2048x64 .f32) (w : FVec Ideal S2048x5 .f32) (bias : FVec Ideal S1x5 .f32)
    (i : S256x5.Idx) : EReal :=
  (∑ c : Fin 2048, ((∑ k : Fin 64, x3 (ix3 (⟨(i 0).val, (i 0).isLt⟩ : Fin 256) c k)) * Ideal.ofBits .f32 0x3C800000#32)
      * w (ix2 c (⟨(i 1).val, (i 1).isLt⟩ : Fin 5)))
    + bias (ix2 (0 : Fin 1) (⟨(i 1).val, (i 1).isLt⟩ : Fin 5))

/-- A tile computed from blocks that restrict the arrays — row (j 0) of the input block is row (i 0) of the array, the
    weights and the bias row are the whole arrays, the column is the same — is `pooledHeads` at i. -/
theorem tile_eq_pooledHeads (x3 : FVec Ideal S256x2048x64 .f32) (w : FVec Ideal S2048x5 .f32) (bias : FVec Ideal S1x5 .f32)
    (x0 : FVec Ideal S16x2048x64 .f32) (x1 : FVec Ideal S2048x5 .f32) (x2 : FVec Ideal S1x5 .f32)
    (j : S16x5.Idx) (i : S256x5.Idx) (hcol : (i 1).val = (j 1).val)
    (h0 : ∀ (c : Fin 2048) (k : Fin 64),
      x0 (ix3 (⟨(j 0).val, (j 0).isLt⟩ : Fin 16) c k) = x3 (ix3 (⟨(i 0).val, (i 0).isLt⟩ : Fin 256) c k))
    (h1 : x1 = w) (h2 : x2 = bias) :
    k0_pay1 (F := Ideal) x0 x1 x2 j = pooledHeads x3 w bias i := by
  subst h1 h2
  have hq : (⟨(i 1).val, (i 1).isLt⟩ : Fin 5) = ⟨(j 1).val, (j 1).isLt⟩ := Fin.ext hcol
  refine ((congrArg (k0_pay1 (F := Ideal) x0 x1 x2) (eq_ix2 j)).trans
    (tile_apply x0 x1 x2 (⟨(j 0).val, (j 0).isLt⟩ : Fin 16) (⟨(j 1).val, (j 1).isLt⟩ : Fin 5))).trans ?_
  unfold pooledHeads
  rw [hq]
  refine congrArg₂ (· + ·) (Finset.sum_congr rfl fun c _ => ?_) rfl
  exact congrArg₂ (· * ·) (congrArg (· * Ideal.ofBits .f32 0x3C800000#32) (Finset.sum_congr rfl fun k _ => h0 c k)) rfl

end Cert.KernelIdeal.Tile

end
-- ==== Proof.Blocks.lean ====
/-
  From the sixteen tiles to the region's whole result. Grid point t takes rows 16 t .. 16 t + 15 of the flattened input
  and the whole weight matrix and bias row, and writes rows 16 t .. 16 t + 15 of the [256, 5] result. So what point t
  writes back is the restriction of `pooledHeads` of the arrays to those rows; the sixteen row ranges cover the 256
  rows (row r lies in the range of point r / 16); hence after the run the result array is `pooledHeads` of the arrays.
-/
import proofs.«170877_j87033217286358_2_alg».proof.Proof.Gen.KernelIdeal.Frame
import proofs.«170877_j87033217286358_2_alg».proof.Proof.Tile
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices, decided over the sixteen points: the input block moves with the output block along the rows and
    sits at 0 on its other axes; the weights and the bias row are always block 0; the output block is in column block 0. -/
theorem index_facts : ∀ t : Fin cfg0.N,
    win0_0.index t (0 : Fin 3) = win0_3.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the sixteen row blocks is some point's. -/
theorem index_onto : ∀ q0 : Fin 16, ∃ t : Fin cfg0.N, win0_3.index t = ![q0.val, 0] :=
  (by decide +kernel : ∀ q0 : Fin 16, ∃ t : Fin grid0.N, win0_3.index t = ![q0.val, 0])

/-- What point t writes back is block t of `pooledHeads` of the arrays as the region finds them. -/
theorem flushed_eq (c : Dev nD) (t : Fin cfg0.N) :
    (dats m 0 c).flushed 3 t = ((cfg0.win 3).blk t).view.read (Elt Ideal)
      (pooledHeads (V m c main_v5) (V m c main_v2) (V m c main_v4)) := by
  show (cfg0.win 3).cut (grid0.coords t) ((dats m 0 c).after 3 t) = _
  rw [after0_3]
  unfold out0_3
  rw [View.canon_unit_zero zeros2]
  simp only [View.ld_unit_zero (S := S16x2048x64) zeros3, View.ld_unit_zero (S := S2048x5) zeros2,
    View.ld_unit_zero (S := S1x5) zeros2]
  obtain ⟨e00, e01, e02, e10, e11, e20, e21, e31, -⟩ := index_facts t
  funext j
  show k0_pay1 (F := Ideal) (iblk m c 0 t) (iblk m c 1 t) (iblk m c 2 t) j
    = pooledHeads (V m c main_v5) (V m c main_v2) (V m c main_v4) (((cfg0.win 3).blk t).view.emb j)
  refine tile_eq_pooledHeads (V m c main_v5) (V m c main_v2) (V m c main_v4)
    (iblk m c 0 t) (iblk m c 1 t) (iblk m c 2 t) j (((cfg0.win 3).blk t).view.emb j) ?_ ?_ ?_ ?_
  · show win0_3.index t (1 : Fin 2) * 5 + 1 * (j 1).val = (j 1).val
    omega
  · intro cc k
    show V m c main_v5 (((cfg0.win 0).blk t).view.emb (ix3 (⟨(j 0).val, (j 0).isLt⟩ : Fin 16) cc k))
      = V m c main_v5 (ix3 (⟨((((cfg0.win 3).blk t).view.emb j) 0).val, ((((cfg0.win 3).blk t).view.emb j) 0).isLt⟩ : Fin 256) cc k)
    refine congrArg (V m c main_v5) (funext fun a => Fin.ext ?_)
    match a with
    | ⟨0, _⟩ =>
      show win0_0.index t (0 : Fin 3) * 16 + 1 * (j 0).val = win0_3.index t (0 : Fin 2) * 16 + 1 * (j 0).val
      omega
    | ⟨1, _⟩ => show win0_0.index t (1 : Fin 3) * 2048 + 1 * cc.val = cc.val; omega
    | ⟨2, _⟩ => show win0_0.index t (2 : Fin 3) * 64 + 1 * k.val = k.val; omega
  · funext y
    show V m c main_v2 (((cfg0.win 1).blk t).view.emb y) = V m c main_v2 y
    refine congrArg (V m c main_v2) (funext fun a => Fin.ext ?_)
    match a with
    | ⟨0, _⟩ => show win0_1.index t (0 : Fin 2) * 2048 + 1 * (y 0).val = (y 0).val; omega
    | ⟨1, _⟩ => show win0_1.index t (1 : Fin 2) * 5 + 1 * (y 1).val = (y 1).val; omega
  · funext y
    show V m c main_v4 (((cfg0.win 2).blk t).view.emb y) = V m c main_v4 y
    refine congrArg (V m c main_v4) (funext fun a => Fin.ext ?_)
    match a with
    | ⟨0, _⟩ => show win0_2.index t (0 : Fin 2) * 1 + 1 * (y 0).val = (y 0).val; omega
    | ⟨1, _⟩ => show win0_2.index t (1 : Fin 2) * 5 + 1 * (y 1).val = (y 1).val; omega

/-- An index of the result array is in point t's block iff each coordinate is in the block's range on its axis. -/
theorem mem_blk (t : Fin cfg0.N) (i : S256x5.Idx) :
    i ∈ ((cfg0.win 3).blk t).view.set ↔ ∀ a : Fin 2, win0_3.index t a * S16x5.size a ≤ (i a).val
      ∧ (i a).val < win0_3.index t a * S16x5.size a + S16x5.size a := by
  show i ∈ ((View.whole main_v6).slice (win0_3.rect t)).set ↔ _
  rw [View.set_slice_whole, Rect.mem_set_unit]
  exact Iff.rfl

/-- Every index of the result array is in some point's block: row r is in the block of point r / 16. -/
theorem cover (i : S256x5.Idx) :
    ∃ t : Fin cfg0.N, (cfg0.win 3).flush t = true ∧ i ∈ ((cfg0.win 3).blk t).view.set := by
  have hi0 : (i 0).val < 256 := (i 0).isLt
  have hi1 : (i 1).val < 5 := (i 1).isLt
  obtain ⟨t, ht⟩ := index_onto ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 16 ≤ (i 0).val ∧ (i 0).val < win0_3.index t (0 : Fin 2) * 16 + 16
    omega
  | ⟨1, _⟩ =>
    show win0_3.index t (1 : Fin 2) * 5 ≤ (i 1).val ∧ (i 1).val < win0_3.index t (1 : Fin 2) * 5 + 5
    omega

/-- The result array after the run: `pooledHeads` of the arrays as the region finds them. -/
theorem final (c : Dev nD) :
    (dats m 0 c).arrAt 3 cfg0.N = pooledHeads (V m c main_v5) (V m c main_v2) (V m c main_v4) :=
  (dats m 0 c).arrAt_eq_of_cover 3 _ (fun t _ => flushed_eq m c t) (cover)

end Cert.KernelIdeal.Blocks

end
-- ==== Proof.KernelRun.lean ====
/-
  The kernel program as a whole. Before the region the host lines flatten the input's three trailing axes, lay the two
  transposed weight matrices side by side and the two bias vectors end to end as one row; after it they cut the
  [256, 5] result into its first two and its last three columns. So the program's two results are those two column
  ranges of `pooledHeads` of (flattened input, joined weights, joined bias row), and its arguments end unchanged.
-/
import proofs.«170877_j87033217286358_2_alg».proof.Proof.Blocks
import Idealize.ShloMosaic.Lib.StableHlo.Run

set_option maxRecDepth 16384

noncomputable section

namespace Cert.KernelIdeal.Whole

open Cert.KernelIdeal Cert.KernelIdeal.Gen Cert.KernelIdeal.Tile Cert.KernelIdeal.Blocks
open Idealize.ShloMosaic Idealize.ShloMosaic.TcCoe Idealize.ShloMosaic.StableHlo Idealize.SL.Sem

/-- The input with its three trailing axes flattened. -/
def flatX (X : FVec Ideal S256x2048x16x2x2 .f32) : FVec Ideal S256x2048x64 .f32 :=
  shapeCast S256x2048x64 X shapeCasts_S256x2048x16x2x2_S256x2048x64

/-- The two weight matrices transposed and laid side by side: columns 0, 1 from the first, 2, 3, 4 from the second. -/
def joinedW (Wl : FVec Ideal S2x2048 .f32) (Wc : FVec Ideal S3x2048 .f32) : FVec Ideal S2048x5 .f32 :=
  concatenate S2048x5 1 [⟨S2048x2, transpose S2048x2 [1, 0] Wl transposes_S2x2048_S2048x2_1_0⟩,
    ⟨S2048x3, transpose S2048x3 [1, 0] Wc transposes_S3x2048_S2048x3_1_0⟩] concatenates_S2048x2_S2048x3_S2048x5_d1

/-- The two bias vectors end to end, as one row. -/
def joinedB (bl : FVec Ideal S2 .f32) (bc : FVec Ideal S3 .f32) : FVec Ideal S1x5 .f32 :=
  broadcastInDim S1x5 ![1] bcast_S5_S1x5_1 (concatenate S5 0 [⟨S2, bl⟩, ⟨S3, bc⟩] concatenates_S2_S3_S5_d0)

/-- The region's [256, 5] result as a function of the program's arguments. -/
def regionOut (X : FVec Ideal S256x2048x16x2x2 .f32) (Wl : FVec Ideal S2x2048 .f32) (bl : FVec Ideal S2 .f32)
    (Wc : FVec Ideal S3x2048 .f32) (bc : FVec Ideal S3 .f32) : FVec Ideal S256x5 .f32 :=
  pooledHeads (flatX X) (joinedW Wl Wc) (joinedB bl bc)

/-- The first result: columns 0, 1. -/
def loc (X : FVec Ideal S256x2048x16x2x2 .f32) (Wl : FVec Ideal S2x2048 .f32) (bl : FVec Ideal S2 .f32)
    (Wc : FVec Ideal S3x2048 .f32) (bc : FVec Ideal S3 .f32) : FVec Ideal S256x2 .f32 :=
  extractStridedSlice S256x2 ![0, 0] (regionOut X Wl bl Wc bc) slices_S256x5_S256x2_0_0

/-- The second result: columns 2, 3, 4. -/
def conf (X : FVec Ideal S256x2048x16x2x2 .f32) (Wl : FVec Ideal S2x2048 .f32) (bl : FVec Ideal S2 .f32)
    (Wc : FVec Ideal S3x2048 .f32) (bc : FVec Ideal S3 .f32) : FVec Ideal S256x3 .f32 :=
  extractStridedSlice S256x3 ![0, 2] (regionOut X Wl bl Wc bc) slices_S256x5_S256x3_0_2

variable (m : (ℓ : Loc nD τ sig) → Buf (Elt Ideal) ℓ) (ρ : Dev nD → PrngReg)

/-! ## The arrays the region finds -/

theorem V_main_v5 (c : Dev nD) :
    (V m c main_v5 : FVec Ideal S256x2048x64 .f32) = flatX (m ((c : Thread nD τ).loc main_arg0)) := by
  show StableHlo.after hostOps0 (fun b => m (c, b)) (Proc.devRef .tc main_v5) = _
  after_results
  rfl

theorem V_main_v2 (c : Dev nD) :
    (V m c main_v2 : FVec Ideal S2048x5 .f32)
      = joinedW (m ((c : Thread nD τ).loc main_arg2)) (m ((c : Thread nD τ).loc main_arg4)) := by
  show StableHlo.after hostOps0 (fun b => m (c, b)) (Proc.devRef .tc main_v2) = _
  after_results
  rfl

theorem V_main_v4 (c : Dev nD) :
    (V m c main_v4 : FVec Ideal S1x5 .f32)
      = joinedB (m ((c : Thread nD τ).loc main_arg3)) (m ((c : Thread nD τ).loc main_arg5)) := by
  show StableHlo.after hostOps0 (fun b => m (c, b)) (Proc.devRef .tc main_v4) = _
  after_results
  rfl

/-- The region's result array after the run, in the program's arguments. -/
theorem region_result (c : Dev nD) :
    (dats m 0 c).arrAt 3 cfg0.N
      = regionOut (m ((c : Thread nD τ).loc main_arg0)) (m ((c : Thread nD τ).loc main_arg2))
          (m ((c : Thread nD τ).loc main_arg3)) (m ((c : Thread nD τ).loc main_arg4)) (m ((c : Thread nD τ).loc main_arg5)) := by
  refine (final m c).trans ?_
  rw [V_main_v5 m c, V_main_v2 m c, V_main_v4 m c]
  rfl

/-! ## The two lines after the region -/

theorem tail_v7 (c : Dev nD) :
    Pipeline.afterTail₀ cfgs (dats m) 0 (V0 m) [hostOps1] c main_v7
      = extractStridedSlice S256x2 ![0, 0] ((dats m 0 c).arrAt 3 cfg0.N) slices_S256x5_S256x2_0_0 := by
  unfold Pipeline.afterTail₀
  show StableHlo.after hostOps1 _ (Proc.devRef .tc main_v7) = _
  after_results
  exact congrArg (fun A => extractStridedSlice S256x2 ![0, 0] A slices_S256x5_S256x2_0_0)
    (Pipeline.withArrays_arr spec0 winFacts0.arr_inj c _ _ 3)

theorem tail_v8 (c : Dev nD) :
    Pipeline.afterTail₀ cfgs (dats m) 0 (V0 m) [hostOps1] c main_v8
      = extractStridedSlice S256x3 ![0, 2] ((dats m 0 c).arrAt 3 cfg0.N) slices_S256x5_S256x3_0_2 := by
  unfold Pipeline.afterTail₀
  show StableHlo.after hostOps1 _ (Proc.devRef .tc main_v8) = _
  after_results
  exact congrArg (fun A => extractStridedSlice S256x3 ![0, 2] A slices_S256x5_S256x3_0_2)
    (Pipeline.withArrays_arr spec0 winFacts0.arr_inj c _ _ 3)

/-! ## The run -/

/-- Every weakly fair execution of the program terminates with its two results at `loc` and `conf` of the arguments
    and the arguments unchanged. -/
theorem run : θ_run defs (onTc (τ := τ) (main (F := Ideal))) ⟨m, fun _ => 0, ρ⟩ fun r => ∀ c : Dev nD,
      r.2.mem ((c : Thread nD τ).loc main_v7)
        = loc (m ((c : Thread nD τ).loc main_arg0)) (m ((c : Thread nD τ).loc main_arg2))
            (m ((c : Thread nD τ).loc main_arg3)) (m ((c : Thread nD τ).loc main_arg4)) (m ((c : Thread nD τ).loc main_arg5))
      ∧ r.2.mem ((c : Thread nD τ).loc main_v8)
        = conf (m ((c : Thread nD τ).loc main_arg0)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(((h c).2 main_v7 (Pipeline.mem_restRefs_of main_v7 (by decide) (by decide))).trans (tail_v7 m c)).trans
        (congrArg (fun A => extractStridedSlice S256x2 ![0, 0] A slices_S256x5_S256x2_0_0) (region_result m c)),
      (((h c).2 main_v8 (Pipeline.mem_restRefs_of main_v8 (by decide) (by decide))).trans (tail_v8 m c)).trans
        (congrArg (fun A => extractStridedSlice S256x3 ![0, 2] A slices_S256x5_S256x3_0_2) (region_result m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.Pooling.lean ====
/-
  The sum over the trailing (T, H, W) = (16, 2, 2) positions of a row of an array X : [B, C, 16, 2, 2], two ways.

  Flattening the three trailing axes row-major gives an array [B, C, 64] whose entry (b, c, k) is X at
  (b, c, k / 4, k / 2 % 2, k % 2): the "k-th cell" of row (b, c). A sum along the last axis of the flattened array and
  a sum over the three trailing axes of X both add up exactly these 64 cells, so they agree (addition on the extended
  reals is commutative and associative; no finiteness is needed). The mean is this sum times 2^-6 on one side and the
  quotient by 64 on the other: the two words denote 1/64 and 64 exactly, and a quotient by a nonzero real is the
  product with its inverse on every extended real.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Pooling

open Idealize.ShloMosaic Idealize.ShloMosaic.ValueIdx

variable {B C : Nat}

/-- The k-th trailing position of row (b, c), row-major: k = 4 t + 2 h + w. -/
def cell (b : Fin B) (c : Fin C) (k : Fin 64) : (⟨5, ![B, C, 16, 2, 2]⟩ : Shape).Idx :=
  ix5 b c (⟨k.val / 4, by omega⟩ : Fin 16) (⟨k.val / 2 % 2, by omega⟩ : Fin 2) (⟨k.val % 2, by omega⟩ : Fin 2)

/-- The position among the 64 of a trailing triple (t, h, w). -/
def pos (i : (⟨5, ![B, C, 16, 2, 2]⟩ : Shape).Idx) : Fin 64 :=
  ⟨(i 2).val * 4 + (i 3).val * 2 + (i 4).val, by
    have h2 : (i 2).val < 16 := (i 2).isLt
    have h3 : (i 3).val < 2 := (i 3).isLt
    have h4 : (i 4).val < 2 := (i 4).isLt
    omega⟩

/-- The flattened array at (b, c, k) is X at the k-th cell of row (b, c): both have the same row-major position. -/
theorem flatten_apply {α : Type} (X : (⟨5, ![B, C, 16, 2, 2]⟩ : Shape).Idx → α)
    (h : (⟨5, ![B, C, 16, 2, 2]⟩ : Shape).ShapeCasts ⟨3, ![B, C, 64]⟩) (b : Fin B) (c : Fin C) (k : Fin 64) :
    shapeCast ⟨3, ![B, C, 64]⟩ X h (ix3 b c k) = X (cell b c k) :=
  shapeCast_apply X h _ _ (by
    rw [Shape.rowMajor_val_five, Shape.rowMajor_val_three]
    show ((((b.val * C + c.val) * 16 + k.val / 4) * 2 + k.val / 2 % 2) * 2 + k.val % 2) = (b.val * C + c.val) * 64 + k.val
    generalize b.val * C + c.val = n
    omega)

/-- The host's sum over the three trailing axes, read at (b, c): the initial value plus the sum of the row's 64 cells. -/
theorem trailingSum_apply (h' : (⟨5, ![B, C, 16, 2, 2]⟩ : Shape).ReducesTo [2, 3, 4] ⟨2, ![B, C]⟩)
    (X : (⟨5, ![B, C, 16, 2, 2]⟩ : Shape).Idx → EReal) (init : EReal) (b : Fin B) (c : Fin C) :
    Ideal.hostReduceAdd h' X init (ix2 b c) = init + ∑ k : Fin 64, X (cell b c k) := by
  unfold Ideal.hostReduceAdd
  congr 1
  refine Finset.sum_nbij' pos (cell b c) ?_ ?_ ?_ ?_ ?_
  · intro i _; exact Finset.mem_univ _
  · intro k _
    rw [Finset.mem_filter]
    refine ⟨Finset.mem_univ _, ?_⟩
    funext a; apply Fin.ext
    match a with
    | ⟨0, _⟩ => rfl
    | ⟨1, _⟩ => rfl
  · intro i hi
    rw [Finset.mem_filter] at hi
    have e0 : (i 0).val = b.val := congrArg Fin.val (congrFun hi.2 0)
    have e1 : (i 1).val = c.val := congrArg Fin.val (congrFun hi.2 1)
    have h2 : (i 2).val < 16 := (i 2).isLt
    have h3 : (i 3).val < 2 := (i 3).isLt
    have h4 : (i 4).val < 2 := (i 4).isLt
    funext a; apply Fin.ext
    match a with
    | ⟨0, _⟩ => exact e0.symm
    | ⟨1, _⟩ => exact e1.symm
    | ⟨2, _⟩ => show ((i 2).val * 4 + (i 3).val * 2 + (i 4).val) / 4 = (i 2).val; omega
    | ⟨3, _⟩ => show ((i 2).val * 4 + (i 3).val * 2 + (i 4).val) / 2 % 2 = (i 3).val; omega
    | ⟨4, _⟩ => show ((i 2).val * 4 + (i 3).val * 2 + (i 4).val) % 2 = (i 4).val; omega
  · intro k _
    apply Fin.ext
    show k.val / 4 * 4 + k.val / 2 % 2 * 2 + k.val % 2 = k.val
    omega
  · intro i hi
    rw [Finset.mem_filter] at hi
    have e0 : (i 0).val = b.val := congrArg Fin.val (congrFun hi.2 0)
    have e1 : (i 1).val = c.val := congrArg Fin.val (congrFun hi.2 1)
    have h2 : (i 2).val < 16 := (i 2).isLt
    have h3 : (i 3).val < 2 := (i 3).isLt
    have h4 : (i 4).val < 2 := (i 4).isLt
    refine congrArg X (funext fun a => Fin.ext ?_)
    match a with
    | ⟨0, _⟩ => exact e0
    | ⟨1, _⟩ => exact e1
    | ⟨2, _⟩ => show (i 2).val = ((i 2).val * 4 + (i 3).val * 2 + (i 4).val) / 4; omega
    | ⟨3, _⟩ => show (i 3).val = ((i 2).val * 4 + (i 3).val * 2 + (i 4).val) / 2 % 2; omega
    | ⟨4, _⟩ => show (i 4).val = ((i 2).val * 4 + (i 3).val * 2 + (i 4).val) % 2; omega

/-- One linear head over the mean-pooled features: at batch row b and output j,
    (sum over channels c of mean(b, c) * W(j, c)) + bias(j), the mean written as the sum of the row's 64 cells times the
    word 2^-6. Both programs' results are this function, index by index. -/
def pooledHead {n : Nat} (X : (⟨5, ![B, C, 16, 2, 2]⟩ : Shape).Idx → EReal) (W : (⟨2, ![n, C]⟩ : Shape).Idx → EReal)
    (bias : (⟨1, ![n]⟩ : Shape).Idx → EReal) (b : Fin B) (j : Fin n) : EReal :=
  (∑ c : Fin C, ((∑ k : Fin 64, X (cell b c k)) * Ideal.ofBits .f32 0x3C800000#32) * W (ix2 j c)) + bias (ix1 j)

/-- The word 0x3C800000 is 2^-6 = 1/64. -/
theorem ofBits_inv64 : Ideal.ofBits .f32 0x3C800000#32 = ((1 / 64 : ℝ) : EReal) := by
  simp [Ideal.ofBits, Ideal.ieee, -EReal.coe_mul]; norm_num

/-- The word 0x42800000 is 64. -/
theorem ofBits_64 : Ideal.ofBits .f32 0x42800000#32 = ((64 : ℝ) : EReal) := by
  simp [Ideal.ofBits, Ideal.ieee, -EReal.coe_mul]; norm_num

/-- The quotient by the word 64 is the product with the word 1/64, on every extended real. -/
theorem div64_eq_mul (s : EReal) :
    Ideal.div s (Ideal.ofBits .f32 0x42800000#32) = s * Ideal.ofBits .f32 0x3C800000#32 := by
  rw [ofBits_64, ofBits_inv64]
  exact Ideal.div_coe (by norm_num : (64 : ℝ) ≠ 0) s

end Cert.Pooling

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.KernelHeads.lean ====
/-
  The kernel program's two results, index by index. Row b of the flattened input holds the 64 cells of row (b, c) of the
  input; column q of the joined weights is row q of the first weight matrix for q < 2 and row q - 2 of the second
  otherwise, and likewise the joined bias row; cutting columns 0, 1 and columns 2, 3, 4 out of the region's result
  therefore gives the two linear heads over the mean-pooled features.
-/
import proofs.«170877_j87033217286358_2_alg».proof.Proof.KernelRun
import proofs.«170877_j87033217286358_2_alg».proof.Proof.Pooling
import proofs.«170877_j87033217286358_2_alg».proof.Proof.LibConcatCols
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Tile Cert.Pooling
open Idealize.ShloMosaic Idealize.ShloMosaic.ValueIdx

theorem flatX_apply (X : FVec Ideal S256x2048x16x2x2 .f32) (b : Fin 256) (c : Fin 2048) (k : Fin 64) :
    flatX X (ix3 b c k) = X (cell b c k) :=
  flatten_apply X _ b c k

/-- Columns 0, 1 of the joined weights are the rows of the first matrix. -/
theorem joinedW_left (Wl : FVec Ideal S2x2048 .f32) (Wc : FVec Ideal S3x2048 .f32) (c : Fin 2048) (q : Fin 5) (j : Fin 2)
    (hq : j.val = q.val) : joinedW Wl Wc (ix2 c q) = Wl (ix2 j c) := by
  unfold joinedW
  refine (Cert.LibConcatCols.cols_left _ _ _ c q j hq).trans ?_
  exact transpose_apply [1, 0] Wl _ (ix2 c j) (ix2 j c) (fun b => match b with
    | ⟨0, _⟩ => rfl
    | ⟨1, _⟩ => rfl)

/-- Columns 2, 3, 4 of the joined weights are the rows of the second matrix. -/
theorem joinedW_right (Wl : FVec Ideal S2x2048 .f32) (Wc : FVec Ideal S3x2048 .f32) (c : Fin 2048) (q : Fin 5) (j : Fin 3)
    (hq : j.val + 2 = q.val) : joinedW Wl Wc (ix2 c q) = Wc (ix2 j c) := by
  unfold joinedW
  refine (Cert.LibConcatCols.cols_right _ _ _ c q j hq).trans ?_
  exact transpose_apply [1, 0] Wc _ (ix2 c j) (ix2 j c) (fun b => match b with
    | ⟨0, _⟩ => rfl
    | ⟨1, _⟩ => rfl)

/-- The joined bias row at column q is the two vectors end to end at position q. -/
theorem joinedB_apply (bl : FVec Ideal S2 .f32) (bc : FVec Ideal S3 .f32) (q : Fin 5) :
    joinedB bl bc (ix2 (0 : Fin 1) q) = concatenate S5 0 [⟨S2, bl⟩, ⟨S3, bc⟩] concatenates_S2_S3_S5_d0 (ix1 q) := by
  unfold joinedB
  exact broadcastInDim_apply _ bcast_S5_S1x5_1 _ (ix2 (0 : Fin 1) q) (ix1 q) (fun a => match a with
    | ⟨0, _⟩ => by show q.val = if (5 : Nat) = 1 then 0 else q.val; rw [if_neg (by decide)])

theorem joinedB_left (bl : FVec Ideal S2 .f32) (bc : FVec Ideal S3 .f32) (q : Fin 5) (j : Fin 2) (hq : j.val = q.val) :
    joinedB bl bc (ix2 (0 : Fin 1) q) = bl (ix1 j) := by
  refine (joinedB_apply bl bc q).trans ?_
  exact concatenate_pair_apply_left 0 bl bc concatenates_S2_S3_S5_d0 (ix1 q) rfl (ix1 j) (fun d => match d with
    | ⟨0, _⟩ => hq)

theorem joinedB_right (bl : FVec Ideal S2 .f32) (bc : FVec Ideal S3 .f32) (q : Fin 5) (j : Fin 3) (hq : j.val + 2 = q.val) :
    joinedB bl bc (ix2 (0 : Fin 1) q) = bc (ix1 j) := by
  refine (joinedB_apply bl bc q).trans ?_
  exact concatenate_pair_apply_right 0 bl bc concatenates_S2_S3_S5_d0 (ix1 q) rfl rfl (ix1 j)
    (fun d hd => match d with
      | ⟨0, _⟩ => absurd rfl hd) hq

/-- The first result at (b, j): the first head. -/
theorem loc_apply (X : FVec Ideal S256x2048x16x2x2 .f32) (Wl : FVec Ideal S2x2048 .f32) (bl : FVec Ideal S2 .f32)
    (Wc : FVec Ideal S3x2048 .f32) (bc : FVec Ideal S3 .f32) (b : Fin 256) (j : Fin 2) :
    loc X Wl bl Wc bc (ix2 b j) = pooledHead X Wl bl b j := by
  unfold loc
  refine (extractStridedSlice_apply ![0, 0] _ slices_S256x5_S256x2_0_0 (ix2 b j)
    (ix2 b (⟨j.val, by have := j.isLt; omega⟩ : Fin 5)) (fun a => ?_)).trans ?_
  · match a with
    | ⟨0, _⟩ => show b.val = 0 + b.val; omega
    | ⟨1, _⟩ => show j.val = 0 + j.val; omega
  · unfold regionOut pooledHeads pooledHead
    refine congrArg₂ (· + ·) (Finset.sum_congr rfl fun c _ => ?_)
      (joinedB_left bl bc (⟨j.val, by have := j.isLt; omega⟩ : Fin 5) j rfl)
    exact congrArg₂ (· * ·)
      (congrArg (· * Ideal.ofBits .f32 0x3C800000#32) (Finset.sum_congr rfl fun k _ => flatX_apply X b c k))
      (joinedW_left Wl Wc c (⟨j.val, by have := j.isLt; omega⟩ : Fin 5) j rfl)

/-- The second result at (b, j): the second head. -/
theorem conf_apply (X : FVec Ideal S256x2048x16x2x2 .f32) (Wl : FVec Ideal S2x2048 .f32) (bl : FVec Ideal S2 .f32)
    (Wc : FVec Ideal S3x2048 .f32) (bc : FVec Ideal S3 .f32) (b : Fin 256) (j : Fin 3) :
    conf X Wl bl Wc bc (ix2 b j) = pooledHead X Wc bc b j := by
  unfold conf
  refine (extractStridedSlice_apply ![0, 2] _ slices_S256x5_S256x3_0_2 (ix2 b j)
    (ix2 b (⟨j.val + 2, by have := j.isLt; omega⟩ : Fin 5)) (fun a => ?_)).trans ?_
  · match a with
    | ⟨0, _⟩ => show b.val = 0 + b.val; omega
    | ⟨1, _⟩ => show j.val + 2 = 2 + j.val; omega
  · unfold regionOut pooledHeads pooledHead
    refine congrArg₂ (· + ·) (Finset.sum_congr rfl fun c _ => ?_)
      (joinedB_right bl bc (⟨j.val + 2, by have := j.isLt; omega⟩ : Fin 5) j rfl)
    exact congrArg₂ (· * ·)
      (congrArg (· * Ideal.ofBits .f32 0x3C800000#32) (Finset.sum_congr rfl fun k _ => flatX_apply X b c k))
      (joinedW_right Wl Wc c (⟨j.val + 2, by have := j.isLt; omega⟩ : Fin 5) j rfl)

end Cert.KernelIdeal.Whole

end
-- ==== Proof.RefHeads.lean ====
/-
  The reference program's two results, index by index. The mean over the three trailing axes is the sum of the row's 64
  cells (from the zero word) divided by the word 64, which is that sum times the word 2^-6; each head is the product of
  the means with a transposed weight matrix plus the bias laid out over the rows. So the reference's results are the
  same two linear heads over the mean-pooled features as the kernel's.
-/
import proofs.«170877_j87033217286358_2_alg».proof.Proof.Gen.ReferenceIdeal.Read
import proofs.«170877_j87033217286358_2_alg».proof.Proof.Pooling
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.Pooling
open Idealize.ShloMosaic Idealize.ShloMosaic.ValueIdx

/-- The mean at (b, c): the sum of the row's 64 cells times 2^-6. -/
theorem mean_apply (X : FVec Ideal S256x2048x16x2x2 .f32) (b : Fin 256) (c : Fin 2048) :
    val_main_v2 (F := Ideal) X (ix2 b c) = (∑ k : Fin 64, X (cell b c k)) * Ideal.ofBits .f32 0x3C800000#32 := by
  rw [val_main_v2_apply, val_main_v1_apply, val_main_cst_0_apply]
  show Ideal.div (Ideal.hostReduceAdd reducesTo_S256x2048x16x2x2_S256x2048_d2_3_4 X (Ideal.ofBits .f32 0x00000000#32) (ix2 b c))
      (Ideal.ofBits .f32 0x42800000#32) = _
  rw [div64_eq_mul]
  refine congrArg (· * Ideal.ofBits .f32 0x3C800000#32) ?_
  refine (trailingSum_apply reducesTo_S256x2048x16x2x2_S256x2048_d2_3_4 X _ b c).trans ?_
  rw [Ideal.ofBits_zero_f32, zero_add]

/-- The first result at (b, j): the first head. -/
theorem loc_apply (X : FVec Ideal S256x2048x16x2x2 .f32) (Wl : FVec Ideal S2x2048 .f32) (bl : FVec Ideal S2 .f32)
    (b : Fin 256) (j : Fin 2) :
    val_main_v7 (F := Ideal) X Wl bl (ix2 b j) = pooledHead X Wl bl b j := by
  rw [val_main_v7_apply]
  show val_main_v4 (F := Ideal) X Wl (ix2 b j) + val_main_v6 (F := Ideal) bl (ix2 b j) = _
  rw [val_main_v4_apply, val_main_v6_apply, val_main_v5_apply]
  unfold pooledHead
  refine congrArg₂ (· + ·) (Finset.sum_congr rfl fun c _ => ?_) ?_
  · rw [val_main_v3_apply]
    have el : lidx_main_v4 (ix2 b j) c = ix2 b c := funext fun a => Fin.ext (by
      match a with
      | ⟨0, _⟩ => rfl
      | ⟨1, _⟩ => rfl)
    have er : idx_main_v3 (ridx_main_v4 (ix2 b j) c) = ix2 j c := funext fun a => Fin.ext (by
      match a with
      | ⟨0, _⟩ => rfl
      | ⟨1, _⟩ => rfl)
    rw [el, er, mean_apply]
  · exact congrArg bl (funext fun a => Fin.ext (by
      match a with
      | ⟨0, _⟩ => rfl))

/-- The second result at (b, j): the second head. -/
theorem conf_apply (X : FVec Ideal S256x2048x16x2x2 .f32) (Wc : FVec Ideal S3x2048 .f32) (bc : FVec Ideal S3 .f32)
    (b : Fin 256) (j : Fin 3) :
    val_main_v12 (F := Ideal) X Wc bc (ix2 b j) = pooledHead X Wc bc b j := by
  rw [val_main_v12_apply]
  show val_main_v9 (F := Ideal) X Wc (ix2 b j) + val_main_v11 (F := Ideal) bc (ix2 b j) = _
  rw [val_main_v9_apply, val_main_v11_apply, val_main_v10_apply]
  unfold pooledHead
  refine congrArg₂ (· + ·) (Finset.sum_congr rfl fun c _ => ?_) ?_
  · rw [val_main_v8_apply]
    have el : lidx_main_v9 (ix2 b j) c = ix2 b c := funext fun a => Fin.ext (by
      match a with
      | ⟨0, _⟩ => rfl
      | ⟨1, _⟩ => rfl)
    have er : idx_main_v8 (ridx_main_v9 (ix2 b j) c) = ix2 j c := funext fun a => Fin.ext (by
      match a with
      | ⟨0, _⟩ => rfl
      | ⟨1, _⟩ => rfl)
    rw [el, er, mean_apply]
  · exact congrArg bc (funext fun a => Fin.ext (by
      match a with
      | ⟨0, _⟩ => rfl))

end Cert.ReferenceIdeal.RefValue

end
-- ==== Proof.lean ====
/-
  A global average pool followed by two linear heads, as one fused kernel, against the plain formulation.

  For x : [256, 2048, 16, 2, 2], weights W_loc : [2, 2048], W_conf : [3, 2048] and biases b_loc : [2], b_conf : [3], both
  programs return, for each head (W, b),

      out(b, j) = (sum over channels c of mean(b, c) * W(j, c)) + b(j),   mean(b, c) = (sum of the 64 cells of row (b, c)) / 64.

  The kernel flattens the three trailing axes, sums the 64 lanes of each row, multiplies by the word 2^-6, multiplies
  the [16, 2048] tile of means by the two transposed weight matrices laid side by side ([2048, 5]), adds the two biases
  laid end to end, and the host cuts the [256, 5] result into columns 0..1 and 2..4. The reference sums over the three
  trailing axes, divides by the word 64, and takes the two products separately. On the extended reals a quotient by 64
  is the product with 1/64 at every value, finite or not; the two sums add the same 64 cells; a column of the joined
  matrix is a row of one of the two weight matrices. So the results agree index by index (`Cert.Pooling.pooledHead` is
  the common value), with no use of the finiteness of the inputs.

  The frames of the two kernel programs are the generated ones; the reference's frame is its generated run with the
  results dropped; the idealization rewrote nothing, so there is nothing to preserve.
-/
import proofs.«170877_j87033217286358_2_alg».proof.Defs
import proofs.«170877_j87033217286358_2_alg».proof.Proof.Gen.Kernel
import proofs.«170877_j87033217286358_2_alg».proof.Proof.Gen.Kernel.Skeleton
import proofs.«170877_j87033217286358_2_alg».proof.Proof.Gen.Kernel.Launch
import proofs.«170877_j87033217286358_2_alg».proof.Proof.Gen.Kernel.Points
import proofs.«170877_j87033217286358_2_alg».proof.Proof.Gen.Kernel.Frame
import proofs.«170877_j87033217286358_2_alg».proof.Proof.Gen.KernelIdeal
import proofs.«170877_j87033217286358_2_alg».proof.Proof.Gen.KernelIdeal.Skeleton
import proofs.«170877_j87033217286358_2_alg».proof.Proof.Gen.KernelIdeal.Launch
import proofs.«170877_j87033217286358_2_alg».proof.Proof.Gen.KernelIdeal.Points
import proofs.«170877_j87033217286358_2_alg».proof.Proof.Gen.KernelIdeal.Frame
import proofs.«170877_j87033217286358_2_alg».proof.Proof.Gen.ReferenceIdeal
import proofs.«170877_j87033217286358_2_alg».proof.Proof.Gen.Pre_finite_inputs
import proofs.«170877_j87033217286358_2_alg».proof.Proof.Gen.ReferenceIdeal.Run
import proofs.«170877_j87033217286358_2_alg».proof.Proof.Gen.ReferenceIdeal.Read
import proofs.«170877_j87033217286358_2_alg».proof.Proof.KernelHeads
import proofs.«170877_j87033217286358_2_alg».proof.Proof.RefHeads
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program's first result and the reference's are one function of the arguments. -/
theorem loc_eq (X : FVec Ideal Cert.KernelIdeal.S256x2048x16x2x2 .f32) (Wl : FVec Ideal Cert.KernelIdeal.S2x2048 .f32)
    (bl : FVec Ideal Cert.KernelIdeal.S2 .f32) (Wc : FVec Ideal Cert.KernelIdeal.S3x2048 .f32)
    (bc : FVec Ideal Cert.KernelIdeal.S3 .f32) :
    Cert.ReferenceIdeal.Read.val_main_v7 (F := Ideal) X Wl bl = Cert.KernelIdeal.Whole.loc X Wl bl Wc bc := by
  funext i
  obtain ⟨b, j, rfl⟩ : ∃ (b : Fin 256) (j : Fin 2), i = ix2 b j := ⟨i 0, i 1, eq_ix2 i⟩
  exact (Cert.ReferenceIdeal.RefValue.loc_apply X Wl bl b j).trans (Cert.KernelIdeal.Whole.loc_apply X Wl bl Wc bc b j).symm

/-- Likewise the second result. -/
theorem conf_eq (X : FVec Ideal Cert.KernelIdeal.S256x2048x16x2x2 .f32) (Wl : FVec Ideal Cert.KernelIdeal.S2x2048 .f32)
    (bl : FVec Ideal Cert.KernelIdeal.S2 .f32) (Wc : FVec Ideal Cert.KernelIdeal.S3x2048 .f32)
    (bc : FVec Ideal Cert.KernelIdeal.S3 .f32) :
    Cert.ReferenceIdeal.Read.val_main_v12 (F := Ideal) X Wc bc = Cert.KernelIdeal.Whole.conf X Wl bl Wc bc := by
  funext i
  obtain ⟨b, j, rfl⟩ : ∃ (b : Fin 256) (j : Fin 3), i = ix2 b j := ⟨i 0, i 1, eq_ix2 i⟩
  exact (Cert.ReferenceIdeal.RefValue.conf_apply X Wc bc b j).trans (Cert.KernelIdeal.Whole.conf_apply X Wl bl Wc bc b j).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run; the kernel program ends with its results at the two column ranges of the region's
    result, the reference with its two heads; from agreeing arguments these are equal (`loc_eq`, `conf_eq`). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨h0, h1, h2, h3, h4, h5⟩ := hagree c
  refine ⟨?_, ?_, (h c).2.2⟩
  · refine ((h c).1.trans (Cert.ReferenceIdeal.Read.val_main_v7_eq _ _ _)).trans ?_
    rw [h0, h2, h3]
    exact loc_eq _ _ _ _ _
  · refine ((h c).2.1.trans (Cert.ReferenceIdeal.Read.val_main_v12_eq _ _ _)).trans ?_
    rw [h0, h4, h5]
    exact conf_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
